-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S3200000 : Shape := ⟨1, ![3200000]⟩
abbrev S512 : Shape := ⟨1, ![512]⟩
abbrev S512x50 : Shape := ⟨2, ![512, 50]⟩
abbrev S50000x1 : Shape := ⟨2, ![50000, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S50000x64 .f32) (main_arg1 : FVec F S50000x64 .f32) (main_arg2 : FVec F S3200000 .f32) (main_arg3 : IVec S3200000 32) (main_arg4 : IVec S3200000 32) (main_arg5 : IVec S512 32) (main_arg6 : IVec S512x50 32) (main_arg7 : IVec S50000x1 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S50000x64 : Shape := ⟨2, ![50000, 64]⟩
abbrev S3200000 : Shape := ⟨1, ![3200000]⟩
abbrev S512 : Shape := ⟨1, ![512]⟩
abbrev S512x50 : Shape := ⟨2, ![512, 50]⟩
abbrev S50000x1 : Shape := ⟨2, ![50000, 1]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S512x1 : Shape := ⟨2, ![512, 1]⟩
abbrev S512x64 : Shape := ⟨2, ![512, 64]⟩
abbrev S50000 : Shape := ⟨1, ![50000]⟩
abbrev S51200x64 : Shape := ⟨2, ![51200, 64]⟩
abbrev S512x51200 : Shape := ⟨2, ![512, 51200]⟩
abbrev S3200x64 : Shape := ⟨2, ![3200, 64]⟩
abbrev S512x3200 : Shape := ⟨2, ![512, 3200]⟩
abbrev S512x50000 : Shape := ⟨2, ![512, 50000]⟩

abbrev nBuf : Space → Nat
  | .hbm => 123
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S512, .i32⟩
  | .hbm, ⟨6, _⟩ => ⟨S512x50, .i32⟩
  | .hbm, ⟨7, _⟩ => ⟨S50000x1, .i32⟩
  | .hbm, ⟨8, _⟩ => ⟨S_, .f32⟩
  | .hbm, ⟨9, _⟩ => ⟨S3200000, .f32⟩
  | .hbm, ⟨10, _⟩ => ⟨S_, .f32⟩
  | .hbm, ⟨11, _⟩ => ⟨S100000, .f32⟩
  | .hbm, ⟨12, _⟩ => ⟨S3200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S100000x64, .f32⟩
  | .hbm, ⟨43, _⟩ => ⟨S3200000x1, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x64, .f32⟩
  | .hbm, ⟨60, _⟩ => ⟨S3200000x1, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x64, .f32⟩
  | .hbm, ⟨70, _⟩ => ⟨S3200000x64, .f32⟩
  | .hbm, ⟨71, _⟩ => ⟨S3200000x64, .f32⟩
  | .hbm, ⟨72, _⟩ => ⟨S_, .f32⟩
  | .hbm, ⟨73, _⟩ => ⟨S100000x64, .f32⟩
  | .hbm, ⟨74, _⟩ => ⟨S3200000x1, .i32⟩
  | .hbm, ⟨75, _⟩ => ⟨S100000x64, .f32⟩
  | .hbm, ⟨76, _⟩ => ⟨S100000x64, .f32⟩
  | .hbm, ⟨77, _⟩ => ⟨S3200000x1, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S3200000x64, .f32⟩
  | .hbm, ⟨87, _⟩ => ⟨S3200000x64, .f32⟩
  | .hbm, ⟨88, _⟩ => ⟨S3200000x64, .f32⟩
  | .hbm, ⟨89, _⟩ => ⟨S_, .f32⟩
  | .hbm, ⟨90, _⟩ => ⟨S100000x64, .f32⟩
  | .hbm, ⟨91, _⟩ => ⟨S3200000x1, .i32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S512, .i32⟩
  | .hbm, ⟨99, _⟩ => ⟨S512, .i1⟩
  | .hbm, ⟨100, _⟩ => ⟨S_, .i32⟩
  | .hbm, ⟨101, _⟩ => ⟨S512, .i32⟩
  | .hbm, ⟨102, _⟩ => ⟨S512, .i32⟩
  | .hbm, ⟨103, _⟩ => ⟨S512, .i32⟩
  | .hbm, ⟨104, _⟩ => ⟨S512x1, .i32⟩
  | .hbm, ⟨105, _⟩ => ⟨S512x64, .f32⟩
  | .hbm, ⟨106, _⟩ => ⟨S50000, .i32⟩
  | .hbm, ⟨107, _⟩ => ⟨S_, .i32⟩
  | .hbm, ⟨108, _⟩ => ⟨S50000, .i32⟩
  | .hbm, ⟨109, _⟩ => ⟨S50000, .i1⟩
  | .hbm, ⟨110, _⟩ => ⟨S_, .i32⟩
  | .hbm, ⟨111, _⟩ => ⟨S50000, .i32⟩
  | .hbm, ⟨112, _⟩ => ⟨S50000, .i32⟩
  | .hbm, ⟨113, _⟩ => ⟨S50000, .i32⟩
  | .hbm, ⟨114, _⟩ => ⟨S50000x1, .i32⟩
  | .hbm, ⟨115, _⟩ => ⟨S50000x64, .f32⟩
  | .hbm, ⟨116, _⟩ => ⟨S512x64, .bf16⟩
  | .hbm, ⟨117, _⟩ => ⟨S50000x64, .bf16⟩
  | .hbm, ⟨118, _⟩ => ⟨S_, .i32⟩
  | .hbm, ⟨119, _⟩ => ⟨S_, .bf16⟩
  | .hbm, ⟨120, _⟩ => ⟨S51200x64, .bf16⟩
  | .hbm, ⟨121, _⟩ => ⟨S512x51200, .f32⟩
  | .hbm, ⟨122, _⟩ => ⟨S512x50000, .f32⟩
  | .local _ .vmem, ⟨0, _⟩ => ⟨S512x64, .bf16⟩
  | .local _ .vmem, ⟨1, _⟩ => ⟨S3200x64, .bf16⟩
  | .local _ .vmem, ⟨2, _⟩ => ⟨S3200x64, .bf16⟩
  | .local _ .vmem, ⟨3, _⟩ => ⟨S512x3200, .f32⟩
  | .local _ .vmem, ⟨4, _⟩ => ⟨S512x3200, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_20 : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S50000x64_S50000x64_S100000x64_d0 : Shape.Concatenates [S50000x64, S50000x64] S100000x64 0
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S512 : S_.BroadcastsInDim S512 (![] : Fin 0 → Fin S512.rank)
  bcast_S512_S512x1_0 : S512.BroadcastsInDim S512x1 (![0] : Fin 1 → Fin S512x1.rank)
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  pads_S50000x64_S51200x64_012000_000 : S50000x64.Pads (![0, 0] : Fin 2 → Nat) ![1200, 0] ![0, 0] S51200x64
  h_S_ : 0 < S_.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S512x3200_S512x3200_0_0 : ∀ a, (![0, 0] : Fin 2 → Nat) a + S512x3200.size a ≤ S512x3200.size a
  h_S512x3200 : 0 < S512x3200.numel
  slices_S512x51200_S512x50000_0_0 : S512x51200.Slices ![0, 0] S512x50000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S512x1_S512x64_1_0_n_n_0_1_164_wf : GatherDims.WF S100000x64 S512x1 S512x64 [1] [0] [] [0] [] 1 ![1, 64]
  gather_S100000x64_S50000x1_S50000x64_1_0_n_n_0_1_164_wf : GatherDims.WF S100000x64 S50000x1 S50000x64 [1] [0] [] [0] [] 1 ![1, 64]
  dot_S512x64_S3200x64_S512x3200_1_1_0_0_n_n_wf : DotDims.WF S512x64 S3200x64 S512x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S512x64.size a
  hwx0_0 : ∀ i : grid0.Coords, EltTy.bits .bf16 = 32 ∨ (Rect.block (s := S512x64) S512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S51200x64.size a
  hwx0_1 : ∀ i : grid0.Coords, EltTy.bits .bf16 = 32 ∨ (Rect.block (s := S51200x64) S3200x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3200.size a ≤ S512x51200.size a
  hwx0_2 : ∀ i : grid0.Coords, EltTy.bits .f32 = 32 ∨ (Rect.block (s := S512x51200) S512x3200.size (cc0_transform_2 i) (hinb0_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S512x1_S512x64_1_0_n_n_0_1_164 : GatherDims S100000x64 S512x1 S512x64 where
  offsetDims := [1]
  collapsedSliceDims := [0]
  operandBatchingDims := []
  startIndicesBatchingDims := []
  startIndexMap := [0]
  indexVectorDim := 1
  sliceSizes := ![1, 64]
  wf := gather_S100000x64_S512x1_S512x64_1_0_n_n_0_1_164_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def dot_S512x64_S3200x64_S512x3200_1_1_0_0_n_n : DotDims S512x64 S3200x64 S512x3200 where
  lhsContracting := [1]
  rhsContracting := [1]
  lhsNonContracting := [0]
  rhsNonContracting := [0]
  lhsBatch := []
  rhsBatch := []
  wf := dot_S512x64_S3200x64_S512x3200_1_1_0_0_n_n_wf

abbrev win0_0 : Pipeline.Window sig grid0 :=
  Pipeline.Window.ofSpec (Memref.whole main_v84) S512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v86) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S512x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S3200000 : Shape := ⟨1, ![3200000]⟩
abbrev S512 : Shape := ⟨1, ![512]⟩
abbrev S512x50 : Shape := ⟨2, ![512, 50]⟩
abbrev S50000x1 : Shape := ⟨2, ![50000, 1]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S512x1 : Shape := ⟨2, ![512, 1]⟩
abbrev S512x64 : Shape := ⟨2, ![512, 64]⟩
abbrev S50000 : Shape := ⟨1, ![50000]⟩
abbrev S64x50000 : Shape := ⟨2, ![64, 50000]⟩
abbrev S512x50000 : Shape := ⟨2, ![512, 50000]⟩

abbrev nBuf : Space → Nat
  | .hbm => 118
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S512, .i32⟩
  | .hbm, ⟨6, _⟩ => ⟨S512x50, .i32⟩
  | .hbm, ⟨7, _⟩ => ⟨S50000x1, .i32⟩
  | .hbm, ⟨8, _⟩ => ⟨S_, .f32⟩
  | .hbm, ⟨9, _⟩ => ⟨S3200000, .f32⟩
  | .hbm, ⟨10, _⟩ => ⟨S_, .f32⟩
  | .hbm, ⟨11, _⟩ => ⟨S100000, .f32⟩
  | .hbm, ⟨12, _⟩ => ⟨S3200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S100000x64, .f32⟩
  | .hbm, ⟨43, _⟩ => ⟨S3200000x1, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x64, .f32⟩
  | .hbm, ⟨60, _⟩ => ⟨S3200000x1, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x64, .f32⟩
  | .hbm, ⟨70, _⟩ => ⟨S3200000x64, .f32⟩
  | .hbm, ⟨71, _⟩ => ⟨S3200000x64, .f32⟩
  | .hbm, ⟨72, _⟩ => ⟨S_, .f32⟩
  | .hbm, ⟨73, _⟩ => ⟨S100000x64, .f32⟩
  | .hbm, ⟨74, _⟩ => ⟨S3200000x1, .i32⟩
  | .hbm, ⟨75, _⟩ => ⟨S100000x64, .f32⟩
  | .hbm, ⟨76, _⟩ => ⟨S100000x64, .f32⟩
  | .hbm, ⟨77, _⟩ => ⟨S3200000x1, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S3200000x64, .f32⟩
  | .hbm, ⟨87, _⟩ => ⟨S3200000x64, .f32⟩
  | .hbm, ⟨88, _⟩ => ⟨S3200000x64, .f32⟩
  | .hbm, ⟨89, _⟩ => ⟨S_, .f32⟩
  | .hbm, ⟨90, _⟩ => ⟨S100000x64, .f32⟩
  | .hbm, ⟨91, _⟩ => ⟨S3200000x1, .i32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S512, .i32⟩
  | .hbm, ⟨99, _⟩ => ⟨S512, .i1⟩
  | .hbm, ⟨100, _⟩ => ⟨S_, .i32⟩
  | .hbm, ⟨101, _⟩ => ⟨S512, .i32⟩
  | .hbm, ⟨102, _⟩ => ⟨S512, .i32⟩
  | .hbm, ⟨103, _⟩ => ⟨S512, .i32⟩
  | .hbm, ⟨104, _⟩ => ⟨S512x1, .i32⟩
  | .hbm, ⟨105, _⟩ => ⟨S512x64, .f32⟩
  | .hbm, ⟨106, _⟩ => ⟨S50000, .i32⟩
  | .hbm, ⟨107, _⟩ => ⟨S_, .i32⟩
  | .hbm, ⟨108, _⟩ => ⟨S50000, .i32⟩
  | .hbm, ⟨109, _⟩ => ⟨S50000, .i1⟩
  | .hbm, ⟨110, _⟩ => ⟨S_, .i32⟩
  | .hbm, ⟨111, _⟩ => ⟨S50000, .i32⟩
  | .hbm, ⟨112, _⟩ => ⟨S50000, .i32⟩
  | .hbm, ⟨113, _⟩ => ⟨S50000, .i32⟩
  | .hbm, ⟨114, _⟩ => ⟨S50000x1, .i32⟩
  | .hbm, ⟨115, _⟩ => ⟨S50000x64, .f32⟩
  | .hbm, ⟨116, _⟩ => ⟨S64x50000, .f32⟩
  | .hbm, ⟨117, _⟩ => ⟨S512x50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S50000x64_S50000x64_S100000x64_d0 : Shape.Concatenates [S50000x64, S50000x64] S100000x64 0
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S512 : S_.BroadcastsInDim S512 (![] : Fin 0 → Fin S512.rank)
  bcast_S512_S512x1_0 : S512.BroadcastsInDim S512x1 (![0] : Fin 1 → Fin S512x1.rank)
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  transposes_S50000x64_S64x50000_1_0 : S50000x64.Transposes [1, 0] S64x50000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S100000x64_S512x1_S512x64_1_0_n_n_0_1_164_wf : GatherDims.WF S100000x64 S512x1 S512x64 [1] [0] [] [0] [] 1 ![1, 64]
  gather_S100000x64_S50000x1_S50000x64_1_0_n_n_0_1_164_wf : GatherDims.WF S100000x64 S50000x1 S50000x64 [1] [0] [] [0] [] 1 ![1, 64]
  dot_S512x64_S64x50000_S512x50000_1_0_0_1_n_n_wf : DotDims.WF S512x64 S64x50000 S512x50000 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S100000x64_S512x1_S512x64_1_0_n_n_0_1_164 : GatherDims S100000x64 S512x1 S512x64 where
  offsetDims := [1]
  collapsedSliceDims := [0]
  operandBatchingDims := []
  startIndicesBatchingDims := []
  startIndexMap := [0]
  indexVectorDim := 1
  sliceSizes := ![1, 64]
  wf := gather_S100000x64_S512x1_S512x64_1_0_n_n_0_1_164_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def dot_S512x64_S64x50000_S512x50000_1_0_0_1_n_n : DotDims S512x64 S64x50000 S512x50000 where
  lhsContracting := [1]
  rhsContracting := [0]
  lhsNonContracting := [0]
  rhsNonContracting := [1]
  lhsBatch := []
  rhsBatch := []
  wf := dot_S512x64_S64x50000_S512x50000_1_0_0_1_n_n_wf

class Facts : Prop extends Facts₀ where

variable [Facts]
-- ==== Proof.Scores.lean ====
/-
  The score table of a batch of users against a list of candidate items.

  Entry (b, c) of the table is the inner product of user row b with item row c over the embedding coordinates:
  `∑ k, u (b, k) * t (c, k)`. Both programs compute this table from the same two gathered embedding matrices; they
  differ only in how the product is laid out (one product over all items with the item matrix transposed first, or
  sixteen products over blocks of 3200 item rows of the item matrix extended by 1200 rows that are cut away again).
  The sum over `k` is a finite sum in the extended reals, whose addition is commutative and associative, so no
  finiteness of the entries is needed for the two layouts to agree.
-/
import Idealize.ShloMosaic.PureOps.Ideal
import Idealize.ShloMosaic.Lib.ValueIdx

noncomputable section

open scoped BigOperators

namespace Cert.Scores

open Idealize.ShloMosaic Idealize.ShloMosaic.ValueIdx

/-- The inner products of the rows of `u` ([512, 64]) with the rows of `t` ([n, 64]), for any number `n` of rows of `t`:
    entry (b, c) is `∑ k, u (b, k) * t (c, k)`. -/
def rowProducts {n : Nat} (u : (⟨2, ![512, 64]⟩ : Shape).Idx → EReal) (t : (⟨2, ![n, 64]⟩ : Shape).Idx → EReal) :
    (⟨2, ![512, n]⟩ : Shape).Idx → EReal :=
  fun i => ∑ k : Fin 64, u (ix2 (i 0) k) * t (ix2 (i 1) k)

theorem rowProducts_apply {n : Nat} (u : (⟨2, ![512, 64]⟩ : Shape).Idx → EReal) (t : (⟨2, ![n, 64]⟩ : Shape).Idx → EReal)
    (b : Fin 512) (c : Fin n) : rowProducts u t (ix2 b c) = ∑ k : Fin 64, u (ix2 b k) * t (ix2 c k) := rfl

/-- The score table: user rows against the 50000 candidate item rows. -/
abbrev scores (u : (⟨2, ![512, 64]⟩ : Shape).Idx → EReal) (t : (⟨2, ![50000, 64]⟩ : Shape).Idx → EReal) :
    (⟨2, ![512, 50000]⟩ : Shape).Idx → EReal := rowProducts u t

end Cert.Scores

end
-- ==== Proof.RefScores.lean ====
/-
  The reference's result is the score table.

  The reference transposes the gathered item matrix to [64, 50000] and takes one matrix product with the gathered
  user matrix, contracting the users' second axis with the transposed items' first: entry (b, c) is
  `∑ k, users (b, k) * itemsᵀ (k, c)`, and `itemsᵀ (k, c) = items (c, k)`. So entry (b, c) is the inner product of
  user row b with item row c.
-/
import proofs.«103067_j16518444220730_1_alg».proof.Proof.RefRead
import proofs.«103067_j16518444220730_1_alg».proof.Proof.Scores

noncomputable section

open scoped BigOperators

namespace Cert.ReferenceIdeal.RefScores

open Idealize.ShloMosaic Idealize.ShloMosaic.ValueIdx Cert.ReferenceIdeal Cert.ReferenceIdeal.ReadP Cert.Scores

/-- The product stage at (b, c): the contraction reads the users at (b, k) and the transposed items at (k, c), which
    is the items at (c, k). -/
theorem result_eq (x0 x1 : (⟨S50000x64, .f32⟩ : BufTy).Contents (Elt Ideal)) (x2 : (⟨S3200000, .f32⟩ : BufTy).Contents (Elt Ideal))
    (x3 x4 : (⟨S3200000, .i32⟩ : BufTy).Contents (Elt Ideal)) (x5 : (⟨S512, .i32⟩ : BufTy).Contents (Elt Ideal))
    (x7 : (⟨S50000x1, .i32⟩ : BufTy).Contents (Elt Ideal)) :
    val_main_v85 (F := Ideal) x0 x1 x2 x3 x4 x5 x7
      = scores (val_main_v75 (F := Ideal) x0 x1 x2 x3 x4 x5) (val_main_v83 (F := Ideal) x0 x1 x2 x3 x4 x7) := by
  funext i
  rw [val_main_v85_apply]
  show _ = ∑ k : Fin 64, val_main_v75 (F := Ideal) x0 x1 x2 x3 x4 x5 (ix2 (i 0) k) * val_main_v83 (F := Ideal) x0 x1 x2 x3 x4 x7 (ix2 (i 1) k)
  refine Finset.sum_congr rfl fun k _ => ?_
  rw [val_main_v84_apply]
  have el : lidx_main_v85 i k = ix2 (i 0) k := funext fun a => Fin.ext (by
    match a with
    | ⟨0, _⟩ => rfl
    | ⟨1, _⟩ => rfl)
  have er : idx_main_v84 (ridx_main_v85 i k) = ix2 (i 1) k := funext fun a => Fin.ext (by
    match a with
    | ⟨0, _⟩ => rfl
    | ⟨1, _⟩ => rfl)
  rw [el, er]
  rfl

end Cert.ReferenceIdeal.RefScores

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.BlockProduct.lean ====
/-
  What one grid point of the kernel computes.

  A point loads the whole [512, 64] user block and one [3200, 64] block of item rows, multiplies them over their
  last axes into a zero accumulator and stores the [512, 3200] product: entry (p, q) of the stored block is
  `∑ k, x0 (p, k) * x1 (q, k)`, the inner product of user row p with item row q of the block.
-/
import proofs.«103067_j16518444220730_1_alg».proof.Proof.Gen.KernelIdeal.Skeleton
import proofs.«103067_j16518444220730_1_alg».proof.Proof.LibDotLastAxes
import Idealize.ShloMosaic.Lib.Pipeline.Value

noncomputable section

open scoped BigOperators

namespace Cert.KernelIdeal.BlockProduct

open Idealize.ShloMosaic Idealize.ShloMosaic.ValueIdx Cert.KernelIdeal Cert.KernelIdeal.Gen

/-- The stored block at (p, q): both loads are cast to their own shapes (the identity), and the matrix product over
    the last axes into the zero splat is the sum of the products of the two rows' entries. -/
theorem stored_apply (x0 : FVec Ideal S512x64 .bf16) (x1 : FVec Ideal S3200x64 .bf16) (p : Fin 512) (q : Fin 3200) :
    k0_pay1 (F := Ideal) x0 x1 (ix2 p q) = ∑ k : Fin 64, x0 (ix2 p k) * x1 (ix2 q k) := by
  unfold k0_pay1
  have e0 : shapeCast S512x64 x0 Facts₀.shapeCasts_S512x64_S512x64 = x0 := shapeCast_self x0 _
  have e1 : shapeCast S3200x64 x1 Facts₀.shapeCasts_S3200x64_S3200x64 = x1 := shapeCast_self x1 _
  show matmul dot_S512x64_S3200x64_S512x3200_1_1_0_0_n_n none (shapeCast S512x64 x0 Facts₀.shapeCasts_S512x64_S512x64)
      (shapeCast S3200x64 x1 Facts₀.shapeCasts_S3200x64_S3200x64) (constant (F := Ideal) S512x3200 .f32 0x00000000#32) (ix2 p q) = _
  rw [e0, e1]
  exact DotLastAxes.matmul_zero_apply (M := 512) (K := 64) (N := 3200)
    Facts₀.dot_S512x64_S3200x64_S512x3200_1_1_0_0_n_n_wf none x0 x1 p q

end Cert.KernelIdeal.BlockProduct

end
-- ==== Proof.ProductArray.lean ====
/-
  The kernel's output array after the run.

  Grid point t reads the whole user matrix `A` ([512, 64]) and rows 3200·t … 3200·t + 3199 of the extended item matrix
  `B` ([51200, 64]), and writes columns 3200·t … 3200·t + 3199 of the [512, 51200] output. Entry (p, q) of what it
  writes is `∑ k, A (p, k) * B (3200·t + q, k)`, which is entry (p, 3200·t + q) of the table of all row products of
  `A` and `B`: every point writes its own block of that one table. The sixteen column blocks tile the output (column
  n lies in block n / 3200), so after the run the output array is the whole table.
-/
import proofs.«103067_j16518444220730_1_alg».proof.Proof.Gen.KernelIdeal.Frame
import proofs.«103067_j16518444220730_1_alg».proof.Proof.BlockProduct
import proofs.«103067_j16518444220730_1_alg».proof.Proof.Scores
import Idealize.ShloMosaic.Lib.Pipeline.Value

set_option maxRecDepth 16384

noncomputable section

open scoped BigOperators

namespace Cert.KernelIdeal.ProductArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Scores

variable (m : (ℓ : Loc nD τ sig) → Buf (Elt Ideal) ℓ)

theorem zero_offsets : (![0, 0] : Fin 2 → Nat) = fun _ => 0 := funext fun a => by fin_cases a <;> rfl

/-- The array the user window reads, as the region finds it. -/
abbrev userArray (c : Dev nD) : S512x64.Idx → EReal := V m c main_v84
/-- The array the item window reads, as the region finds it. -/
abbrev itemArray (c : Dev nD) : S51200x64.Idx → EReal := V m c main_v86

/-- The table of all row products of the two arrays the region finds in its input windows. -/
abbrev table (c : Dev nD) : S512x51200.Idx → EReal :=
  rowProducts (n := 51200) (userArray m c) (itemArray m c)

/-- The printed index maps over the grid: the user window never moves, the item window moves down its rows exactly as
    the output window moves along its columns, and neither moves on its other axis. -/
theorem block_indices : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 15 :=
  (by decide +kernel : ∀ t : Fin grid0.N, _)

/-- Every column block is some point's. -/
theorem block_onto : ∀ q : Fin 16, ∃ t : Fin cfg0.N, win0_2.index t = ![0, q.val] :=
  (by decide +kernel : ∀ q : Fin 16, ∃ t : Fin grid0.N, win0_2.index t = ![0, q.val])

/-- The user window's block at any point is the whole user matrix. -/
theorem user_block (c : Dev nD) (t : Fin cfg0.N) (p : Fin 512) (k : Fin 64) :
    iblk m c 0 t (ix2 p k) = userArray m c (ix2 p k) := by
  obtain ⟨e0, e1, -, -, -, -⟩ := block_indices t
  show V m c main_v84 (((cfg0.win 0).blk t).view.emb (ix2 p k)) = V m c main_v84 (ix2 p k)
  refine congrArg (V m c main_v84) (funext fun a => Fin.ext ?_)
  match a with
  | ⟨0, _⟩ => show win0_0.index t (0 : Fin 2) * 512 + 1 * p.val = p.val; omega
  | ⟨1, _⟩ => show win0_0.index t (1 : Fin 2) * 64 + 1 * k.val = k.val; omega

/-- The item window's block at point t is rows 3200·(its block index) onwards of the extended item matrix. -/
theorem item_block (c : Dev nD) (t : Fin cfg0.N) (q : Fin 3200) (k : Fin 64) (r : Fin 51200)
    (hr : r.val = win0_2.index t (1 : Fin 2) * 3200 + q.val) :
    iblk m c 1 t (ix2 q k) = itemArray m c (ix2 r k) := by
  obtain ⟨-, -, e2, e3, -, -⟩ := block_indices t
  show V m c main_v86 (((cfg0.win 1).blk t).view.emb (ix2 q k)) = V m c main_v86 (ix2 r k)
  refine congrArg (V m c main_v86) (funext fun a => Fin.ext ?_)
  match a with
  | ⟨0, _⟩ => show win0_1.index t (0 : Fin 2) * 3200 + 1 * q.val = r.val; omega
  | ⟨1, _⟩ => show win0_1.index t (1 : Fin 2) * 64 + 1 * k.val = k.val; omega

/-- What point t writes back is block t of the table. -/
theorem flushed_eq (c : Dev nD) (t : Fin cfg0.N) :
    (dats m 0 c).flushed 2 t = ((cfg0.win 2).blk t).view.read (Elt Ideal) (table m c) := by
  show (cfg0.win 2).cut (grid0.coords t) ((dats m 0 c).after 2 t) = _
  rw [after0_2]
  unfold out0_2
  rw [View.canon_unit_zero zero_offsets]
  simp only [View.ld_unit_zero (S := S512x64) zero_offsets, View.ld_unit_zero (S := S3200x64) zero_offsets]
  funext j
  obtain ⟨p, q, rfl⟩ : ∃ (p : Fin 512) (q : Fin 3200), j = ix2 p q := ⟨j 0, j 1, eq_ix2 j⟩
  obtain ⟨-, -, -, -, e4, e5⟩ := block_indices t
  refine (BlockProduct.stored_apply (iblk m c 0 t) (iblk m c 1 t) p q).trans ?_
  have hrow : win0_2.index t (0 : Fin 2) * 512 + 1 * p.val < 512 := by omega
  have hcol : win0_2.index t (1 : Fin 2) * 3200 + 1 * q.val < 51200 := by have := q.isLt; omega
  show _ = ∑ k : Fin 64, userArray m c (ix2 ⟨win0_2.index t (0 : Fin 2) * 512 + 1 * p.val, hrow⟩ k)
      * itemArray m c (ix2 ⟨win0_2.index t (1 : Fin 2) * 3200 + 1 * q.val, hcol⟩ k)
  refine Finset.sum_congr rfl fun k _ => ?_
  rw [user_block m c t p k, item_block m c t q k ⟨win0_2.index t (1 : Fin 2) * 3200 + 1 * q.val, hcol⟩ (by show win0_2.index t (1 : Fin 2) * 3200 + 1 * q.val = win0_2.index t (1 : Fin 2) * 3200 + q.val; omega)]
  have hp : (⟨win0_2.index t (0 : Fin 2) * 512 + 1 * p.val, hrow⟩ : Fin 512) = p := Fin.ext (by show win0_2.index t (0 : Fin 2) * 512 + 1 * p.val = p.val; omega)
  rw [hp]

/-- An index of the output array is in point t's block iff each coordinate is in the block's range on its axis. -/
theorem mem_block (t : Fin cfg0.N) (i : S512x51200.Idx) :
    i ∈ ((cfg0.win 2).blk t).view.set ↔ ∀ a : Fin 2, win0_2.index t a * S512x3200.size a ≤ (i a).val ∧ (i a).val < win0_2.index t a * S512x3200.size a + S512x3200.size a := by
  show i ∈ ((View.whole main_v87).slice (win0_2.rect t)).set ↔ _
  rw [View.set_slice_whole, Rect.mem_set_unit]
  exact Iff.rfl

/-- The column blocks tile the output: column n lies in block n / 3200. -/
theorem covered (i : S512x51200.Idx) :
    ∃ t : Fin cfg0.N, (cfg0.win 2).flush t = true ∧ i ∈ ((cfg0.win 2).blk t).view.set := by
  have hi0 : (i 0).val < 512 := (i 0).isLt
  have hi1 : (i 1).val < 51200 := (i 1).isLt
  obtain ⟨t, ht⟩ := block_onto ⟨(i 1).val / 3200, by omega⟩
  have q0 : win0_2.index t (0 : Fin 2) = 0 := congrFun ht 0
  have q1 : win0_2.index t (1 : Fin 2) = (i 1).val / 3200 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3200 ≤ (i 1).val ∧ (i 1).val < win0_2.index t (1 : Fin 2) * 3200 + 3200; omega

/-- The output array after the run is the whole table of row products. -/
theorem final (c : Dev nD) : (dats m 0 c).arrAt 2 cfg0.N = table m c :=
  (dats m 0 c).arrAt_eq_of_cover 2 (table m c) (fun t _ => flushed_eq m c t) (covered)

end Cert.KernelIdeal.ProductArray

end
-- ==== Proof.Operands.lean ====
/-
  The two matrices the kernel multiplies, as functions of the program's arguments.

  Before the product both programs run the same host computation: three rounds of normalized-adjacency propagation
  of the concatenated user and item embeddings over the edge list, the mean of the four layers, and two row gathers
  — the 512 user rows and the 50000 candidate item rows. The kernel's program then rounds both gathered matrices to
  bf16 (no change of value in the extended reals) and extends the item matrix by 1200 rows of the padding value.
  So the array the user window reads is the gathered user matrix, and the array the item window reads is the
  gathered item matrix extended below; the gathered matrices are named here by the reference's own stages.

  That the kernel's host operations compose to the reference's stages is a comparison of two texts of the same
  operations, and holds for any float values: it is stated for any float instance, where no operation can be opened,
  and read at the extended reals afterwards.
-/
import proofs.«103067_j16518444220730_1_alg».proof.Proof.Gen.KernelIdeal.Frame
import proofs.«103067_j16518444220730_1_alg».proof.Proof.RefRead
import Idealize.ShloMosaic.Lib.StableHlo.Run

set_option maxRecDepth 16384

noncomputable section

namespace Cert.KernelIdeal.Operands

open Idealize.ShloMosaic Idealize.ShloMosaic.TcCoe Idealize.SL.Sem Idealize.ShloMosaic.StableHlo
open Cert.KernelIdeal Cert.KernelIdeal.Gen

section AnyFloats

variable {F : FTy → Type} [FloatOps F] (m : (ℓ : Loc nD τ sig) → Buf (Elt F) ℓ)

/-- The gathered user rows of the propagated embeddings ([512, 64]), from the launch contents of the arguments. -/
def users (c : Dev nD) : S512x64.Idx → F .f32 :=
  Cert.ReferenceIdeal.ReadP.val_main_v75 (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- The gathered candidate item rows of the propagated embeddings ([50000, 64]). -/
def items (c : Dev nD) : S50000x64.Idx → F .f32 :=
  Cert.ReferenceIdeal.ReadP.val_main_v83 (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg7))

set_option maxHeartbeats 4000000 in
/-- The user window's array when the region is entered, as the host operations leave it: the gathered user matrix
    rounded to bf16. -/
theorem user_array_raw (c : Dev nD) : @Eq (S512x64.Idx → F .bf16) (V m c main_v84)
    (truncf .bf16 (users m c) Facts₀.bitsLt_bf16_f32) := by
  dsimp only [V, V0]
  simp only [hostOps0, hostOps0_1, hostOps0_2, hostOps0_3, List.flatten_cons, List.flatten_nil, List.append_nil, List.cons_append,
    List.nil_append]
  after_results_simp
  unfold users
  rfl

set_option maxHeartbeats 4000000 in
/-- The item window's array when the region is entered, as the host operations leave it: the gathered item matrix
    rounded to bf16 and extended by 1200 rows of the padding value. -/
theorem item_array_raw (c : Dev nD) : @Eq (S51200x64.Idx → F .bf16) (V m c main_v86)
    (pad S51200x64 ![0, 0] ![1200, 0] ![0, 0] (truncf .bf16 (items m c) Facts₀.bitsLt_bf16_f32)
        (sitofp (F := F) .bf16 (constantI S_ 32 0#32))
        Facts₀.pads_S50000x64_S51200x64_012000_000 Facts₀.h_S_) := by
  dsimp only [V, V0]
  simp only [hostOps0, hostOps0_1, hostOps0_2, hostOps0_3, List.flatten_cons, List.flatten_nil, List.append_nil, List.cons_append,
    List.nil_append]
  after_results_simp
  unfold items
  rfl

end AnyFloats

section ExtendedReals

variable (m : (ℓ : Loc nD τ sig) → Buf (Elt Ideal) ℓ)

/-- Rounding to bf16 changes nothing in the extended reals. -/
theorem truncf_bf16 {s : Shape} (x : FVec Ideal s .f32) (h : FTy.bits .bf16 < FTy.bits .f32) : truncf .bf16 x h = x := rfl

/-- The user window's array when the region is entered is the gathered user matrix. -/
theorem user_array (c : Dev nD) : @Eq (S512x64.Idx → EReal) (V m c main_v84) (users m c) :=
  (user_array_raw m c).trans (truncf_bf16 _ _)

/-- The item window's array when the region is entered is the gathered item matrix extended by 1200 rows. -/
theorem item_array (c : Dev nD) : @Eq (S51200x64.Idx → EReal) (V m c main_v86)
    (pad S51200x64 ![0, 0] ![1200, 0] ![0, 0] (items m c) (sitofp (F := Ideal) .bf16 (constantI S_ 32 0#32))
        Facts₀.pads_S50000x64_S51200x64_012000_000 Facts₀.h_S_) :=
  (item_array_raw m c).trans (by rw [truncf_bf16])

end ExtendedReals

end Cert.KernelIdeal.Operands

end
-- ==== Proof.KernelScores.lean ====
/-
  The kernel program's result is the score table.

  After the region the program cuts the first 50000 columns out of the [512, 51200] output. The output is the table
  of row products of the user matrix with the extended item matrix; at a column c < 50000 the extended item matrix's
  row c is the item matrix's row c (the 1200 added rows sit below row 49999 and are never read by the cut). So entry
  (b, c) of the result is `∑ k, users (b, k) * items (c, k)`.
-/
import proofs.«103067_j16518444220730_1_alg».proof.Proof.ProductArray
import proofs.«103067_j16518444220730_1_alg».proof.Proof.Operands
import Idealize.ShloMosaic.Lib.KernelVsHost
import Idealize.ShloMosaic.Lib.StableHlo.Run

set_option maxRecDepth 16384

noncomputable section

open scoped BigOperators

namespace Cert.KernelIdeal.KernelScores

open Idealize.ShloMosaic Idealize.ShloMosaic.TcCoe Idealize.ShloMosaic.ValueIdx Idealize.SL.Sem Idealize.ShloMosaic.StableHlo
open Cert.KernelIdeal Cert.KernelIdeal.Gen Cert.Scores Cert.KernelIdeal.Operands

variable (m : (ℓ : Loc nD τ sig) → Buf (Elt Ideal) ℓ) (ρ : Dev nD → PrngReg)

/-- Row c < 50000 of the extended item matrix is row c of the item matrix. -/
theorem extended_row (x : S50000x64.Idx → EReal) (v : S_.Idx → EReal) (r : Fin 51200) (c : Fin 50000) (k : Fin 64)
    (hr : r.val = c.val) :
    pad S51200x64 ![0, 0] ![1200, 0] ![0, 0] x v Facts₀.pads_S50000x64_S51200x64_012000_000 Facts₀.h_S_ (ix2 r k) = x (ix2 c k) :=
  pad_apply_of_inside ![0, 0] ![1200, 0] ![0, 0] x v _ _ (ix2 r k) (ix2 c k) fun a => by
    match a with
    | ⟨0, _⟩ => show r.val = 0 + c.val * (0 + 1); omega
    | ⟨1, _⟩ => show k.val = 0 + k.val * (0 + 1); omega

/-- The first 50000 columns of the row products of `u` with an item matrix extended by 1200 rows are the row products
    of `u` with the item matrix itself: column n < 50000 reads row n of the extended matrix, which is row n of the
    matrix. -/
theorem cut_rowProducts (u : S512x64.Idx → EReal) (x : S50000x64.Idx → EReal) (v : S_.Idx → EReal) :
    extractStridedSlice S512x50000 ![0, 0]
        (rowProducts (n := 51200) u
          (pad S51200x64 ![0, 0] ![1200, 0] ![0, 0] x v Facts₀.pads_S50000x64_S51200x64_012000_000 Facts₀.h_S_))
        Facts₀.slices_S512x51200_S512x50000_0_0
      = rowProducts (n := 50000) u x := by
  funext i
  obtain ⟨b, n, rfl⟩ : ∃ (b : Fin 512) (n : Fin 50000), i = ix2 b n := ⟨i 0, i 1, eq_ix2 i⟩
  have hn : n.val < 51200 := by have := n.isLt; omega
  refine (extractStridedSlice_apply ![0, 0] _ Facts₀.slices_S512x51200_S512x50000_0_0 (ix2 b n)
    (ix2 b (⟨n.val, hn⟩ : Fin 51200)) fun a => by
      match a with
      | ⟨0, _⟩ => show b.val = 0 + b.val; omega
      | ⟨1, _⟩ => show n.val = 0 + n.val; omega).trans ?_
  rw [rowProducts_apply, rowProducts_apply]
  refine Finset.sum_congr rfl fun k _ => ?_
  rw [extended_row x v ⟨n.val, hn⟩ n k rfl]

/-- The first 50000 columns of the table of row products of the region's two input arrays are the score table of
    the gathered matrices. -/
theorem cut_table (c : Dev nD) :
    extractStridedSlice S512x50000 ![0, 0] (ProductArray.table m c) Facts₀.slices_S512x51200_S512x50000_0_0
      = scores (users m c) (items m c) := by
  have hu : ProductArray.userArray m c = users m c := user_array m c
  have hi : ProductArray.itemArray m c = pad S51200x64 ![0, 0] ![1200, 0] ![0, 0] (items m c)
      (sitofp (F := Ideal) .bf16 (constantI S_ 32 0#32)) Facts₀.pads_S50000x64_S51200x64_012000_000 Facts₀.h_S_ := item_array m c
  show extractStridedSlice S512x50000 ![0, 0]
    (rowProducts (n := 51200) (ProductArray.userArray m c) (ProductArray.itemArray m c)) Facts₀.slices_S512x51200_S512x50000_0_0 = _
  rw [hu, hi]
  exact cut_rowProducts _ _ _

/-- The returned array, as the frame run states it: the cut applied to the region's output array. -/
theorem result_eq (c : Dev nD) :
    Pipeline.afterTail₀ cfgs (dats m) 0 (V0 m) [hostOps1] c main_v88 = scores (users m c) (items m c) := by
  unfold Pipeline.afterTail₀
  show StableHlo.after hostOps1 _ (Proc.devRef .tc main_v88) = _
  after_results
  have hw := (Pipeline.withArrays_arr spec0 launch0.win.arr_inj c (V0 m c) (fun w => (dats m 0 c).arrAt w cfg0.N) 2).trans
    (ProductArray.final m c)
  refine (congrArg (fun x : S512x51200.Idx → EReal =>
    extractStridedSlice S512x50000 ![0, 0] x Facts₀.slices_S512x51200_S512x50000_0_0) hw).trans ?_
  exact cut_table m c

/-- The run of the kernel program: it terminates with the returned array at the score table of the gathered matrices
    and the arguments unchanged. -/
theorem run : θ_run defs (onTc (τ := τ) (main (F := Ideal))) ⟨m, fun _ => 0, ρ⟩ (fun r => ∀ c : Dev nD,
      r.2.mem ((c.tc : Thread nD τ).loc main_v88) = scores (users m c) (items m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v88 (Pipeline.mem_restRefs_of main_v88 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KernelScores

end
-- ==== Proof.lean ====
/-
  The kernel computes the score table of a batch of users against a list of candidate items, and so does the
  reference.

  Both programs first run the same host computation on the arguments — three rounds of normalized-adjacency
  propagation of the concatenated embeddings over the edge list, the mean of the four layers, and the gathers of the
  512 user rows and the 50000 candidate item rows — and then take all inner products of user rows with item rows:
  entry (b, c) of the result is `∑ k, users (b, k) * items (c, k)` over the 64 embedding coordinates.

  The reference transposes the item matrix and takes one matrix product. The kernel's program rounds both matrices
  to bf16 (the identity on extended reals), extends the item matrix by 1200 rows so that its 51200 rows split into
  sixteen blocks of 3200, multiplies the user matrix with each block over the last axes on a grid of sixteen points,
  each point writing its own 3200 columns of a [512, 51200] output, and cuts the first 50000 columns out again. Each
  entry of the cut is the same finite sum of the same products as the reference's, so the two results agree entry by
  entry in the extended reals; no finiteness of the inputs is used. The idealized kernel is the printed kernel's own
  text read at the extended reals (nothing was rewritten), so there is nothing to preserve.
-/
import proofs.«103067_j16518444220730_1_alg».proof.Defs
import proofs.«103067_j16518444220730_1_alg».proof.Proof.Gen.Kernel
import proofs.«103067_j16518444220730_1_alg».proof.Proof.Gen.Kernel.Frame
import proofs.«103067_j16518444220730_1_alg».proof.Proof.Gen.KernelIdeal
import proofs.«103067_j16518444220730_1_alg».proof.Proof.Gen.KernelIdeal.Frame
import proofs.«103067_j16518444220730_1_alg».proof.Proof.Gen.ReferenceIdeal
import proofs.«103067_j16518444220730_1_alg».proof.Proof.Gen.Pre_finite_inputs
import proofs.«103067_j16518444220730_1_alg».proof.Proof.RefRun
import proofs.«103067_j16518444220730_1_alg».proof.Proof.RefRead
import proofs.«103067_j16518444220730_1_alg».proof.Proof.RefScores
import proofs.«103067_j16518444220730_1_alg».proof.Proof.KernelScores
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and leaves its arguments as they were: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Nothing was rewritten when the kernel was read at the extended reals. -/
theorem preserves : Cert.preserves_Kernel_KernelIdeal := trivial

/-- Both programs end with the score table of the gathered user and item matrices, which are the same functions of
    arguments that agree. -/
theorem algebraic : Cert.algebraic_KernelIdeal_ReferenceIdeal := by
  intro m ρ m' ρ' _ hagree
  refine ⟨fun c => Cert.Scores.scores (Cert.KernelIdeal.Operands.users m c) (Cert.KernelIdeal.Operands.items m c),
    Cert.KernelIdeal.KernelScores.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, Cert.ReferenceIdeal.RefScores.result_eq,
    (hagree c).1, (hagree c).2.1, (hagree c).2.2.1, (hagree c).2.2.2.1, (hagree c).2.2.2.2.1, (hagree c).2.2.2.2.2.1,
    (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
